-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v10) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1024x1024 : Shape := ⟨2, ![1024, 1024]⟩
abbrev S1024 : Shape := ⟨1, ![1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_arg11 : FVec F S1024 .f32) (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  let main_v54 : FVec F S1024 .f32 := Host.absf main_arg11
  let main_cst_20 : FVec F S_ .f32 := constant S_ .f32 0x7F800000#32
  let main_v55 : FVec F S1024 .f32 := broadcastInDim S1024 ![] bcast_S_S1024 main_cst_20
  let main_v56 : IVec S1024 1 := cmpf .olt main_v54 main_v55
  let main_c_21 : IVec S_ 1 := constantI S_ 1 1#1
  let main_v57 : IVec S_ 1 := (fun x v => Host.reduce IntOp.andi x v reducesTo_S1024_S_d0 h_S_) main_v56 main_c_21
  let main_v58 : IVec S_ 1 := andi main_v53 main_v57
  main_v58

def fn_part2 {F : FTy → Type} [FloatOps F] (main_arg7 : FVec F S1024 .f32) (main_arg8 : FVec F S1024x1024 .f32) (main_arg9 : FVec F S1024x1024 .f32) (main_arg10 : FVec F S1024x1024 .f32) (main_arg11 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_arg11 main_v48 main_v49 main_v50

def fn_part1 {F : FTy → Type} [FloatOps F] (main_arg4 : FVec F S1024x1024 .f32) (main_arg5 : FVec F S1024 .f32) (main_arg6 : FVec F S1024 .f32) (main_arg7 : FVec F S1024 .f32) (main_arg8 : FVec F S1024x1024 .f32) (main_arg9 : FVec F S1024x1024 .f32) (main_arg10 : FVec F S1024x1024 .f32) (main_arg11 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1024 .f32 := Host.absf main_arg5
  let main_cst_8 : FVec F S_ .f32 := constant S_ .f32 0x7F800000#32
  let main_v25 : FVec F S1024 .f32 := broadcastInDim S1024 ![] bcast_S_S1024 main_cst_8
  let main_v26 : IVec S1024 1 := cmpf .olt main_v24 main_v25
  let main_c_9 : IVec S_ 1 := constantI S_ 1 1#1
  let main_v27 : IVec S_ 1 := (fun x v => Host.reduce IntOp.andi x v reducesTo_S1024_S_d0 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S16384x1024 .f32) (main_arg1 : FVec F S16384x1024 .f32) (main_arg2 : FVec F S1024x1024 .f32) (main_arg3 : FVec F S1024x1024 .f32) (main_arg4 : FVec F S1024x1024 .f32) (main_arg5 : FVec F S1024 .f32) (main_arg6 : FVec F S1024 .f32) (main_arg7 : FVec F S1024 .f32) (main_arg8 : FVec F S1024x1024 .f32) (main_arg9 : FVec F S1024x1024 .f32) (main_arg10 : FVec F S1024x1024 .f32) (main_arg11 : FVec F S1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S16384x1024 .f32 := Host.absf main_arg1
  let main_cst_0 : FVec F S_ .f32 := constant S_ .f32 0x7F800000#32
  let main_v5 : FVec F S16384x1024 .f32 := broadcastInDim S16384x1024 ![] bcast_S_S16384x1024 main_cst_0
  let main_v6 : IVec S16384x1024 1 := cmpf .olt main_v4 main_v5
  let main_c_1 : IVec S_ 1 := constantI S_ 1 1#1
  let main_v7 : IVec S_ 1 := (fun x v => Host.reduce IntOp.andi x v reducesTo_S16384x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_v13 main_v16
-- ==== Kernel.lean ====
abbrev S16384x1024 : Shape := ⟨2, ![16384, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩

abbrev nBuf : Space → Nat
  | .hbm => 23
  | .vmem => 16
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x1024, .bf16⟩
  | .hbm, ⟨13, _⟩ => ⟨S1024x1024, .bf16⟩
  | .hbm, ⟨14, _⟩ => ⟨S1024x1024, .bf16⟩
  | .hbm, ⟨15, _⟩ => ⟨S1024x1024, .bf16⟩
  | .hbm, ⟨16, _⟩ => ⟨S1024x1024, .bf16⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S16384x1024.size a
  hwx0_1 : ∀ i : grid0.Coords, EltTy.bits .f32 = 32 ∨ (Rect.block (s := S16384x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .bf16 = 32 ∨ (Rect.block (s := S1024x1024) S1024x1024.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x1024.size a ≤ S1x1024.size a
  hwx0_10 : ∀ i : grid0.Coords, EltTy.bits .f32 = 32 ∨ (Rect.block (s := S1x1024) S1x1024.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1024.size a ≤ S1x1024.size a
  hwx0_11 : ∀ i : grid0.Coords, EltTy.bits .f32 = 32 ∨ (Rect.block (s := S1x1024) S1x1024.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S512x1024.size a ≤ S16384x1024.size a
  hwx0_12 : ∀ i : grid0.Coords, EltTy.bits .f32 = 32 ∨ (Rect.block (s := S16384x1024) S512x1024.size (cc0_transform_12 i) (hinb0_12 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_arg1) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v6) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v7) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v8) S1x1024.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v9) S1x1024.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v10) S512x1024.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1024x1024 : Shape := ⟨2, ![1024, 1024]⟩
abbrev S1024 : Shape := ⟨1, ![1024]⟩
abbrev S1024x3072 : Shape := ⟨2, ![1024, 3072]⟩
abbrev S16384x3072 : Shape := ⟨2, ![16384, 3072]⟩
abbrev S3072 : Shape := ⟨1, ![3072]⟩
abbrev S1x3072 : Shape := ⟨2, ![1, 3072]⟩
abbrev S_ : Shape := ⟨0, ![]⟩
abbrev S1x1024 : Shape := ⟨2, ![1, 1024]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1024, .f32⟩
  | .hbm, ⟨7, _⟩ => ⟨S1024, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S1024, .f32⟩
  | .hbm, ⟨12, _⟩ => ⟨S1024x3072, .f32⟩
  | .hbm, ⟨13, _⟩ => ⟨S16384x3072, .f32⟩
  | .hbm, ⟨14, _⟩ => ⟨S3072, .f32⟩
  | .hbm, ⟨15, _⟩ => ⟨S1x3072, .f32⟩
  | .hbm, ⟨16, _⟩ => ⟨S16384x3072, .f32⟩
  | .hbm, ⟨17, _⟩ => ⟨S16384x3072, .f32⟩
  | .hbm, ⟨18, _⟩ => ⟨S1024x3072, .f32⟩
  | .hbm, ⟨19, _⟩ => ⟨S16384x3072, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384x1024, .f32⟩
  | .hbm, ⟨31, _⟩ => ⟨S16384x1024, .f32⟩
  | .hbm, ⟨32, _⟩ => ⟨S_, .f32⟩
  | .hbm, ⟨33, _⟩ => ⟨S16384x1024, .f32⟩
  | .hbm, ⟨34, _⟩ => ⟨S16384x1024, .f32⟩
  | .hbm, ⟨35, _⟩ => ⟨S16384x1024, .f32⟩
  | .hbm, ⟨36, _⟩ => ⟨S16384x1024, .f32⟩
  | .hbm, ⟨37, _⟩ => ⟨S16384x1024, .f32⟩
  | .hbm, ⟨38, _⟩ => ⟨S_, .f32⟩
  | .hbm, ⟨39, _⟩ => ⟨S16384x1024, .f32⟩
  | .hbm, ⟨40, _⟩ => ⟨S16384x1024, .f32⟩
  | .hbm, ⟨41, _⟩ => ⟨S_, .f32⟩
  | .hbm, ⟨42, _⟩ => ⟨S16384x1024, .f32⟩
  | .hbm, ⟨43, _⟩ => ⟨S16384x1024, .f32⟩
  | .hbm, ⟨44, _⟩ => ⟨S1x1024, .f32⟩
  | .hbm, ⟨45, _⟩ => ⟨S16384x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_cst_0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_1 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_3 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]

class Facts₀ : Prop where
  concatenates_S1024x1024_S1024x1024_S1024x1024_S1024x3072_d1 : Shape.Concatenates [S1024x1024, S1024x1024, S1024x1024] S1024x3072 1
  concatenates_S1024_S1024_S1024_S3072_d0 : Shape.Concatenates [S1024, S1024, S1024] S3072 0
  bcast_S3072_S1x3072_1 : S3072.BroadcastsInDim S1x3072 (![1] : Fin 1 → Fin S1x3072.rank)
  bcast_S1x3072_S16384x3072_0_1 : S1x3072.BroadcastsInDim S16384x3072 (![0, 1] : Fin 2 → Fin S16384x3072.rank)
  slices_S16384x3072_S16384x1024_0_0 : S16384x3072.Slices ![0, 0] S16384x1024
  slices_S16384x3072_S16384x1024_0_1024 : S16384x3072.Slices ![0, 1024] S16384x1024
  slices_S16384x3072_S16384x1024_0_2048 : S16384x3072.Slices ![0, 2048] S16384x1024
  bcast_S_S16384x1024 : S_.BroadcastsInDim S16384x1024 (![] : Fin 0 → Fin S16384x1024.rank)
  bcast_S1024_S1x1024_1 : S1024.BroadcastsInDim S1x1024 (![1] : Fin 1 → Fin S1x1024.rank)
  bcast_S1x1024_S16384x1024_0_1 : S1x1024.BroadcastsInDim S16384x1024 (![0, 1] : Fin 2 → Fin S16384x1024.rank)
  dot_S16384x1024_S1024x3072_S16384x3072_1_0_0_1_n_n_wf : DotDims.WF S16384x1024 S1024x3072 S16384x3072 [1] [0] [0] [1] [] []

variable [Facts₀]

def dot_S16384x1024_S1024x3072_S16384x3072_1_0_0_1_n_n : DotDims S16384x1024 S1024x3072 S16384x3072 where
  lhsContracting := [1]
  rhsContracting := [0]
  lhsNonContracting := [0]
  rhsNonContracting := [1]
  lhsBatch := []
  rhsBatch := []
  wf := dot_S16384x1024_S1024x3072_S16384x3072_1_0_0_1_n_n_wf

class Facts : Prop extends Facts₀ where

variable [Facts]
-- ==== Proof.GruCell.lean ====
/-
  The cell of a gated recurrent unit over the extended reals, for ONE row of the batch.

  A row `xr` of the input and a row `hr` of the previous state (1024 entries each) meet six square
  weight matrices column by column: `dot u w j = ∑ k, u k · w k j`. With the logistic function
  `σ z = 1 / (1 + e^(-z))` the cell's entry `j` is

      r = σ ((xr · W_ir + b_ir) + hr · W_hr)            the reset gate
      z = σ ((xr · W_iz + b_iz) + hr · W_hz)            the update gate
      n = tanh ((xr · W_in + b_in) + r · (hr · W_hn + b_hn))
      h' = (1 − z) · n + z · hr j

  in exactly this grouping: on the extended reals sums and products of infinities do not regroup, and
  both programs compute the entry in this order, so no law beyond the definition of `σ` is used.
  The number one is kept as the 32-bit word both programs print for it; `one_eq` says it is `1`, which is
  what identifies the spelled-out quotient `one / (one + e^(-z))` with `σ z`.
-/
import Idealize.ShloMosaic.PureOps.Ideal
import Idealize.ShloMosaic.PureOps.IdealRules
import Idealize.ShloMosaic.PureOps.Ideal.Laws
import Idealize.ShloMosaic.Lib.ValueIdx

noncomputable section

namespace Cert.Gru

open Idealize.ShloMosaic

/-- The 32-bit float word of 1.0, read as an extended real. -/
abbrev one : EReal := Ideal.ofBits .f32 0x3F800000#32

/-- That word denotes the real number one. -/
theorem one_eq : one = 1 := IdealRules.sign_bit.ideal_onePat .f32

/-- Entry `j` of the row `u` times the matrix `w`: the sum over the shared coordinate of the products. -/
def dot (u : Fin 1024 → EReal) (w : Fin 1024 → Fin 1024 → EReal) (j : Fin 1024) : EReal :=
  ∑ k : Fin 1024, u k * w k j

/-- The logistic function spelled as a quotient over the printed word for one is the logistic function. -/
theorem logistic_quotient (z : EReal) : Ideal.div one (one + Ideal.exp (-z)) = Ideal.logistic z := by
  rw [one_eq]; rfl

/-- Entry `j` of the new state of one row, from that row of the input (`xr`) and of the state (`hr`). -/
def cell (xr hr : Fin 1024 → EReal) (wir wiz win whr whz whn : Fin 1024 → Fin 1024 → EReal)
    (bir biz bin bhn : Fin 1024 → EReal) (j : Fin 1024) : EReal :=
  (one - Ideal.logistic ((dot xr wiz j + biz j) + dot hr whz j))
      * Ideal.tanh ((dot xr win j + bin j)
          + Ideal.logistic ((dot xr wir j + bir j) + dot hr whr j) * (dot hr whn j + bhn j))
    + Ideal.logistic ((dot xr wiz j + biz j) + dot hr whz j) * hr j

end Cert.Gru

end
-- ==== Proof.KernelCell.lean ====
/-
  What the kernel's body computes for one block of 512 rows, entry by entry.

  The body loads a block `xb` of the input and `hb` of the state, the six weight matrices and the four biases
  (each a single row), and stores one value. Read at row `a`, column `b` of the block:
  a product of a block with a matrix into a zero accumulator is the sum over `k` of `block (a, k) · matrix (k, b)`
  (the change of float format before it is the identity on the extended reals, and a shape cast to the same shape
  does nothing); a bias row broadcast over the 512 rows is its entry `b`; the gates are the logistic function and
  the candidate is `tanh`, applied entrywise. So the stored value at `(a, b)` is the cell of `GruCell` for row `a`
  of the two blocks, in the body's own grouping.
-/
import proofs.«111612_j47124381172356_1_alg».proof.Proof.Gen.KernelIdeal.Frame
import proofs.«111612_j47124381172356_1_alg».proof.Proof.GruCell
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.KerValue

open Cert.KernelIdeal Cert.KernelIdeal.Gen Idealize.ShloMosaic Idealize.ShloMosaic.ValueIdx Cert.Gru

/-! ## A block times a matrix, at an entry -/

/-- The left operand's row coordinate is the output's. -/
theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl

/-- The right operand's column coordinate is the output's. -/
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product of a block `u` with a matrix `w` (cast to its own shape) into zero, at `(a, b)`: row `a` of `u` against column `b` of `w`. -/
theorem product_apply {φ₁ φ₂ : FTy} (u : FVec Ideal S512x1024 φ₁) (w : FVec Ideal S1024x1024 φ₂) (hw : S1024x1024.ShapeCasts S1024x1024)
    (a : Fin 512) (b : Fin 1024) :
    matmul dot_S512x1024_S1024x1024_S512x1024_1_0_0_1_n_n none u (shapeCast S1024x1024 w hw) (constant S512x1024 .f32 0x00000000#32) (ix2 a b)
      = dot (fun k => u (ix2 a k)) (fun k j => w (ix2 k j)) b := by
  rw [shapeCast_self]
  simp only [matmul]
  rw [Ideal.matmul_constant_zero_apply, ← Equiv.sum_comp (ValueIdx.contrEquiv1 dot_S512x1024_S1024x1024_S512x1024_1_0_0_1_n_n 1024 rfl rfl).symm]
  unfold dot
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx (ix2 a b) ((ValueIdx.contrEquiv1 dot_S512x1024_S1024x1024_S512x1024_1_0_0_1_n_n 1024 rfl rfl).symm k) = ix2 a k := funext fun ax => Fin.ext (by
    match ax with
    | ⟨0, _⟩ => exact lhs_row _ _
    | ⟨1, _⟩ => exact (dot_S512x1024_S1024x1024_S512x1024_1_0_0_1_n_n.lhsIdx_val_of_single rfl _ _).trans hk)
  have er : dot_S512x1024_S1024x1024_S512x1024_1_0_0_1_n_n.rhsIdx (ix2 a b) ((ValueIdx.contrEquiv1 dot_S512x1024_S1024x1024_S512x1024_1_0_0_1_n_n 1024 rfl rfl).symm k) = ix2 k b := funext fun ax => Fin.ext (by
    match ax with
    | ⟨0, _⟩ => exact (dot_S512x1024_S1024x1024_S512x1024_1_0_0_1_n_n.rhsIdx_val_of_single rfl _ _).trans hk
    | ⟨1, _⟩ => exact rhs_col _ _)
  rw [el, er]

/-- A bias row (cast to its own shape) broadcast over the block's rows, at `(a, b)`: its entry `b`. -/
theorem bias_apply (v : FVec Ideal S1x1024 .f32) (hv : S1x1024.ShapeCasts S1x1024) (hb : S1x1024.Broadcasts S512x1024)
    (a : Fin 512) (b : Fin 1024) :
    broadcastTo S512x1024 (shapeCast S1x1024 v hv) hb (ix2 a b) = v (ix2 (0 : Fin 1) b) := by
  rw [shapeCast_self]
  exact broadcastTo_1b_ab_apply v hb a b

/-! ## The gates and the stored value -/

variable (xb hb : Vec Ideal S512x1024 .f32) (w0 w1 w2 w3 w4 w5 : Vec Ideal S1024x1024 .bf16) (b0 b1 b2 b3 : Vec Ideal S1x1024 .f32)

/-- The reset gate at `(a, b)`. -/
theorem reset_apply (a : Fin 512) (b : Fin 1024) :
    k0_pay4 xb hb w0 b0 w3 (ix2 a b)
      = Ideal.logistic ((dot (fun k => xb (ix2 a k)) (fun k j => w0 (ix2 k j)) b + b0 (ix2 (0 : Fin 1) b))
          + dot (fun k => hb (ix2 a k)) (fun k j => w3 (ix2 k j)) b) :=
  congrArg Ideal.logistic (congrArg₂ (· + ·)
    (congrArg₂ (· + ·) (product_apply (k0_pay2 xb) w0 shapeCasts_S1024x1024_S1024x1024 a b) (bias_apply b0 shapeCasts_S1x1024_S1x1024 broadcasts_S1x1024_S512x1024 a b))
    (product_apply (k0_pay3 hb) w3 shapeCasts_S1024x1024_S1024x1024 a b))

/-- The update gate at `(a, b)`. -/
theorem update_apply (a : Fin 512) (b : Fin 1024) :
    k0_pay5 xb hb w1 b1 w4 (ix2 a b)
      = Ideal.logistic ((dot (fun k => xb (ix2 a k)) (fun k j => w1 (ix2 k j)) b + b1 (ix2 (0 : Fin 1) b))
          + dot (fun k => hb (ix2 a k)) (fun k j => w4 (ix2 k j)) b) :=
  congrArg Ideal.logistic (congrArg₂ (· + ·)
    (congrArg₂ (· + ·) (product_apply (k0_pay2 xb) w1 shapeCasts_S1024x1024_S1024x1024 a b) (bias_apply b1 shapeCasts_S1x1024_S1x1024 broadcasts_S1x1024_S512x1024 a b))
    (product_apply (k0_pay3 hb) w4 shapeCasts_S1024x1024_S1024x1024 a b))

/-- THE STORED VALUE at row `a`, column `b` of the block is the cell's entry `b` for row `a` of the two blocks. -/
theorem stored_apply (y : S512x1024.Idx) :
    k0_pay1 hb (k0_pay3 hb) (k0_pay4 xb hb w0 b0 w3) (k0_pay5 xb hb w1 b1 w4) (k0_pay6 xb w2) (k0_pay7 b2) w5 b3 y
      = cell (fun k => xb (ix2 (y 0) k)) (fun k => hb (ix2 (y 0) k))
          (fun k j => w0 (ix2 k j)) (fun k j => w1 (ix2 k j)) (fun k j => w2 (ix2 k j))
          (fun k j => w3 (ix2 k j)) (fun k j => w4 (ix2 k j)) (fun k j => w5 (ix2 k j))
          (fun j => b0 (ix2 (0 : Fin 1) j)) (fun j => b1 (ix2 (0 : Fin 1) j)) (fun j => b2 (ix2 (0 : Fin 1) j))
          (fun j => b3 (ix2 (0 : Fin 1) j)) (y 1) := by
  obtain ⟨a, b, rfl⟩ : ∃ (a : Fin 512) (b : Fin 1024), y = ix2 a b := ⟨y 0, y 1, eq_ix2 y⟩
  exact congrArg₂ (· + ·)
    (congrArg₂ (· * ·) (congrArg (one - ·) (update_apply xb hb w1 w4 b1 a b))
      (congrArg Ideal.tanh (congrArg₂ (· + ·)
        (congrArg₂ (· + ·) (product_apply (k0_pay2 xb) w2 shapeCasts_S1024x1024_S1024x1024 a b) (bias_apply b2 shapeCasts_S1x1024_S1x1024 broadcasts_S1x1024_S512x1024 a b))
        (congrArg₂ (· * ·) (reset_apply xb hb w0 w3 b0 a b)
          (congrArg₂ (· + ·) (product_apply (k0_pay3 hb) w5 shapeCasts_S1024x1024_S1024x1024 a b) (bias_apply b3 shapeCasts_S1x1024_S1x1024 broadcasts_S1x1024_S512x1024 a b))))))
    (congrArg (· * hb (ix2 a b)) (update_apply xb hb w1 w4 b1 a b))

end Cert.KernelIdeal.KerValue

end
-- ==== Proof.GruState.lean ====
/-
  The new state of the whole batch: the cell of `GruCell` applied to every row.

  The arrays are the twelve arguments in the programs' order: the state `h` and the input `x` (16384 rows of
  1024 entries), the three input matrices and their biases, the three state matrices, and the bias of the
  candidate's state projection. Entry `(p, q)` of the result is the cell's entry `q` for row `p` of `x` and of `h`.
  `cell_congr` says the cell depends only on its data: equal rows, matrices, biases and column give equal entries.
-/
import proofs.«111612_j47124381172356_1_alg».proof.Proof.GruCell
import Idealize.ShloMosaic.Lib.ValueIdx

noncomputable section

namespace Cert.Gru

open Idealize.ShloMosaic Idealize.ShloMosaic.ValueIdx

/-- The shape of the state and of the input: 16384 rows of 1024 entries. -/
abbrev Rows : Shape := ⟨2, ![16384, 1024]⟩
/-- The shape of a weight matrix. -/
abbrev Square : Shape := ⟨2, ![1024, 1024]⟩
/-- The shape of a bias. -/
abbrev Len : Shape := ⟨1, ![1024]⟩

/-- The new state, entry by entry, from the twelve argument arrays. -/
def newState (h x : Rows.Idx → EReal) (wir wiz win : Square.Idx → EReal) (bir biz bin : Len.Idx → EReal)
    (whr whz whn : Square.Idx → EReal) (bhn : Len.Idx → EReal) : Rows.Idx → EReal :=
  fun i => cell (fun k => x (ix2 (i 0) k)) (fun k => h (ix2 (i 0) k))
    (fun k j => wir (ix2 k j)) (fun k j => wiz (ix2 k j)) (fun k j => win (ix2 k j))
    (fun k j => whr (ix2 k j)) (fun k j => whz (ix2 k j)) (fun k j => whn (ix2 k j))
    (fun j => bir (ix1 j)) (fun j => biz (ix1 j)) (fun j => bin (ix1 j)) (fun j => bhn (ix1 j)) (i 1)

/-- The cell of equal data is equal. -/
theorem cell_congr {xr xr' hr hr' : Fin 1024 → EReal}
    {wir wir' wiz wiz' win win' whr whr' whz whz' whn whn' : Fin 1024 → Fin 1024 → EReal}
    {bir bir' biz biz' bin bin' bhn bhn' : Fin 1024 → EReal} {j j' : Fin 1024}
    (e1 : xr = xr') (e2 : hr = hr') (e3 : wir = wir') (e4 : wiz = wiz') (e5 : win = win')
    (e6 : whr = whr') (e7 : whz = whz') (e8 : whn = whn') (e9 : bir = bir') (e10 : biz = biz')
    (e11 : bin = bin') (e12 : bhn = bhn') (e13 : j = j') :
    cell xr hr wir wiz win whr whz whn bir biz bin bhn j = cell xr' hr' wir' wiz' win' whr' whz' whn' bir' biz' bin' bhn' j' := by
  subst e1 e2 e3 e4 e5 e6 e7 e8 e9 e10 e11 e12 e13; rfl

end Cert.Gru

end
-- ==== Proof.KernelArray.lean ====
/-
  From the blocks to the array: after the run the kernel's result array holds the new state of every row.

  The grid has 32 points; point `t` stages rows `512 t … 512 t + 511` of the input and of the state, all of every
  weight matrix (cast to the narrower float format by the host beforehand: the identity on the extended reals)
  and all of every bias (reshaped by the host from a vector to a single row), and writes back rows
  `512 t … 512 t + 511` of the result. So what point `t` writes is block `t` of ONE function of the argument arrays,
  the new state of `GruState`: row `a` of a staged block is row `512 t + a` of its array, and the body's stored
  value is the cell for that row (`KernelCell`). The 32 blocks cover the 16384 rows — row `r` lies in block
  `r / 512` — so the whole array ends at that function.
-/
import proofs.«111612_j47124381172356_1_alg».proof.Proof.Gen.KernelIdeal.Value
import proofs.«111612_j47124381172356_1_alg».proof.Proof.KernelCell
import proofs.«111612_j47124381172356_1_alg».proof.Proof.GruState
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.KerValue

open Cert.KernelIdeal Cert.KernelIdeal.Gen Idealize.ShloMosaic Idealize.ShloMosaic.TcCoe Idealize.SL.Sem
open Idealize.ShloMosaic.ValueIdx Cert.Gru
open Idealize.ShloMosaic.Pipeline (Dat)
open Idealize.ShloMosaic.StableHlo

variable (m : (ℓ : Loc nD τ sig) → Buf (Elt Ideal) ℓ) (ρ : Dev nD → PrngReg)

/-! ## What the host wrote before the region -/

/-- A weight matrix cast to the narrower format holds the matrix's own entries. -/
theorem V_main_v0 (c : Dev nD) (i : S1024x1024.Idx) : V m c main_v0 i = m ((c : Thread nD τ).loc main_arg2) i := by
  have e : (V m c main_v0 : S1024x1024.Idx → Ideal .bf16) = truncf (F := Ideal) (s := S1024x1024) (φ := .f32) .bf16 (m ((c : Thread nD τ).loc main_arg2)) bitsLt_bf16_f32 := by
    dsimp only [V, hostOps0]; after_results
  rw [e]; rfl
theorem V_main_v1 (c : Dev nD) (i : S1024x1024.Idx) : V m c main_v1 i = m ((c : Thread nD τ).loc main_arg3) i := by
  have e : (V m c main_v1 : S1024x1024.Idx → Ideal .bf16) = truncf (F := Ideal) (s := S1024x1024) (φ := .f32) .bf16 (m ((c : Thread nD τ).loc main_arg3)) bitsLt_bf16_f32 := by
    dsimp only [V, hostOps0]; after_results
  rw [e]; rfl
theorem V_main_v2 (c : Dev nD) (i : S1024x1024.Idx) : V m c main_v2 i = m ((c : Thread nD τ).loc main_arg4) i := by
  have e : (V m c main_v2 : S1024x1024.Idx → Ideal .bf16) = truncf (F := Ideal) (s := S1024x1024) (φ := .f32) .bf16 (m ((c : Thread nD τ).loc main_arg4)) bitsLt_bf16_f32 := by
    dsimp only [V, hostOps0]; after_results
  rw [e]; rfl
theorem V_main_v3 (c : Dev nD) (i : S1024x1024.Idx) : V m c main_v3 i = m ((c : Thread nD τ).loc main_arg8) i := by
  have e : (V m c main_v3 : S1024x1024.Idx → Ideal .bf16) = truncf (F := Ideal) (s := S1024x1024) (φ := .f32) .bf16 (m ((c : Thread nD τ).loc main_arg8)) bitsLt_bf16_f32 := by
    dsimp only [V, hostOps0]; after_results
  rw [e]; rfl
theorem V_main_v4 (c : Dev nD) (i : S1024x1024.Idx) : V m c main_v4 i = m ((c : Thread nD τ).loc main_arg9) i := by
  have e : (V m c main_v4 : S1024x1024.Idx → Ideal .bf16) = truncf (F := Ideal) (s := S1024x1024) (φ := .f32) .bf16 (m ((c : Thread nD τ).loc main_arg9)) bitsLt_bf16_f32 := by
    dsimp only [V, hostOps0]; after_results
  rw [e]; rfl
theorem V_main_v5 (c : Dev nD) (i : S1024x1024.Idx) : V m c main_v5 i = m ((c : Thread nD τ).loc main_arg10) i := by
  have e : (V m c main_v5 : S1024x1024.Idx → Ideal .bf16) = truncf (F := Ideal) (s := S1024x1024) (φ := .f32) .bf16 (m ((c : Thread nD τ).loc main_arg10)) bitsLt_bf16_f32 := by
    dsimp only [V, hostOps0]; after_results
  rw [e]; rfl

/-- A bias reshaped to a single row holds, at column `j` of that row, the bias's entry `j`. -/
theorem V_main_v6 (c : Dev nD) (j : Fin 1024) : V m c main_v6 (ix2 (0 : Fin 1) j) = m ((c : Thread nD τ).loc main_arg5) (ix1 j) := by
  have e : (V m c main_v6 : S1x1024.Idx → Ideal .f32) = shapeCast S1x1024 (m ((c : Thread nD τ).loc main_arg5)) shapeCasts_S1024_S1x1024 := by
    dsimp only [V, hostOps0]; after_results; rfl
  rw [e]; exact shapeCast_a_1a_apply _ _ 0 j
theorem V_main_v7 (c : Dev nD) (j : Fin 1024) : V m c main_v7 (ix2 (0 : Fin 1) j) = m ((c : Thread nD τ).loc main_arg6) (ix1 j) := by
  have e : (V m c main_v7 : S1x1024.Idx → Ideal .f32) = shapeCast S1x1024 (m ((c : Thread nD τ).loc main_arg6)) shapeCasts_S1024_S1x1024 := by
    dsimp only [V, hostOps0]; after_results; rfl
  rw [e]; exact shapeCast_a_1a_apply _ _ 0 j
theorem V_main_v8 (c : Dev nD) (j : Fin 1024) : V m c main_v8 (ix2 (0 : Fin 1) j) = m ((c : Thread nD τ).loc main_arg7) (ix1 j) := by
  have e : (V m c main_v8 : S1x1024.Idx → Ideal .f32) = shapeCast S1x1024 (m ((c : Thread nD τ).loc main_arg7)) shapeCasts_S1024_S1x1024 := by
    dsimp only [V, hostOps0]; after_results; rfl
  rw [e]; exact shapeCast_a_1a_apply _ _ 0 j
theorem V_main_v9 (c : Dev nD) (j : Fin 1024) : V m c main_v9 (ix2 (0 : Fin 1) j) = m ((c : Thread nD τ).loc main_arg11) (ix1 j) := by
  have e : (V m c main_v9 : S1x1024.Idx → Ideal .f32) = shapeCast S1x1024 (m ((c : Thread nD τ).loc main_arg11)) shapeCasts_S1024_S1x1024 := by
    dsimp only [V, hostOps0]; after_results; rfl
  rw [e]; exact shapeCast_a_1a_apply _ _ 0 j

/-! ## Where each window's block sits, decided over the 32 points -/

theorem hz : (![0, 0] : Fin 2 → Nat) = fun _ => 0 := funext fun a => by fin_cases a <;> rfl

/-- The input's and the state's blocks move with the result's, one block of rows per point, and lie in the
    one block of columns; the weights' and the biases' blocks never move. -/
theorem idx_facts : ∀ t : Fin cfg0.N,
    win0_12.index t (0 : Fin 2) = t.val ∧ win0_12.index t (1 : Fin 2) = 0
    ∧ win0_0.index t (0 : Fin 2) = win0_12.index t (0 : Fin 2) ∧ win0_0.index t (1 : Fin 2) = 0
    ∧ win0_1.index t (0 : Fin 2) = win0_12.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

/-- Every block of rows is some point's. -/
theorem idx_onto : ∀ q : Fin 32, ∃ t : Fin cfg0.N, win0_12.index t = ![q.val, 0] :=
  (by decide +kernel : ∀ q : Fin 32, ∃ t : Fin grid0.N, win0_12.index t = ![q.val, 0])

/-! ## The staged blocks, read as the arrays' entries -/

/-- Row `a` of the input's block at point `t` is row `r` of the input, for `r` the row the result's block puts `a` at. -/
theorem input_block (c : Dev nD) (t : Fin cfg0.N) (a : Fin 512) (k : Fin 1024) (r : Fin 16384)
    (hr : r.val = win0_12.index t (0 : Fin 2) * 512 + 1 * a.val) :
    iblk m c 0 t (ix2 a k) = m ((c : Thread nD τ).loc main_arg1) (ix2 r k) := by
  show V m c main_arg1 (((cfg0.win 0).blk t).view.emb (ix2 a k)) = _
  rw [V_main_arg1]
  obtain ⟨f0, f1, f2, f3, f4, f5, -⟩ := idx_facts t
  refine congrArg _ (funext fun ax => Fin.ext ?_)
  match ax with
  | ⟨0, _⟩ => show win0_0.index t (0 : Fin 2) * 512 + 1 * a.val = r.val; omega
  | ⟨1, _⟩ => show win0_0.index t (1 : Fin 2) * 1024 + 1 * k.val = k.val; omega

/-- Likewise the state's block. -/
theorem state_block (c : Dev nD) (t : Fin cfg0.N) (a : Fin 512) (k : Fin 1024) (r : Fin 16384)
    (hr : r.val = win0_12.index t (0 : Fin 2) * 512 + 1 * a.val) :
    iblk m c 1 t (ix2 a k) = m ((c : Thread nD τ).loc main_arg0) (ix2 r k) := by
  show V m c main_arg0 (((cfg0.win 1).blk t).view.emb (ix2 a k)) = _
  rw [V_main_arg0]
  obtain ⟨f0, f1, f2, f3, f4, f5, -⟩ := idx_facts t
  refine congrArg _ (funext fun ax => Fin.ext ?_)
  match ax with
  | ⟨0, _⟩ => show win0_1.index t (0 : Fin 2) * 512 + 1 * a.val = r.val; omega
  | ⟨1, _⟩ => show win0_1.index t (1 : Fin 2) * 1024 + 1 * k.val = k.val; omega

/-- A weight matrix's block is all of it, wherever the point. -/
theorem weight_block2 (c : Dev nD) (t : Fin cfg0.N) (k j : Fin 1024) :
    iblk m c 2 t (ix2 k j) = m ((c : Thread nD τ).loc main_arg2) (ix2 k j) := by
  obtain ⟨-, -, -, -, -, -, p2, q2, p3, q3, p4, q4, p5, q5, p6, q6, p7, q7, p8, q8, p9, q9, p10, q10, p11, q11⟩ := idx_facts t
  have e : ((cfg0.win 2).blk t).view.emb (ix2 k j) = ix2 k j := funext fun ax => Fin.ext (by
    match ax with
    | ⟨0, _⟩ => show win0_2.index t (0 : Fin 2) * 1024 + 1 * k.val = k.val; omega
    | ⟨1, _⟩ => show win0_2.index t (1 : Fin 2) * 1024 + 1 * j.val = j.val; omega)
  exact (congrArg (V m c main_v0) e).trans (V_main_v0 m c _)
theorem weight_block3 (c : Dev nD) (t : Fin cfg0.N) (k j : Fin 1024) :
    iblk m c 3 t (ix2 k j) = m ((c : Thread nD τ).loc main_arg3) (ix2 k j) := by
  obtain ⟨-, -, -, -, -, -, p2, q2, p3, q3, p4, q4, p5, q5, p6, q6, p7, q7, p8, q8, p9, q9, p10, q10, p11, q11⟩ := idx_facts t
  have e : ((cfg0.win 3).blk t).view.emb (ix2 k j) = ix2 k j := funext fun ax => Fin.ext (by
    match ax with
    | ⟨0, _⟩ => show win0_3.index t (0 : Fin 2) * 1024 + 1 * k.val = k.val; omega
    | ⟨1, _⟩ => show win0_3.index t (1 : Fin 2) * 1024 + 1 * j.val = j.val; omega)
  exact (congrArg (V m c main_v1) e).trans (V_main_v1 m c _)
theorem weight_block4 (c : Dev nD) (t : Fin cfg0.N) (k j : Fin 1024) :
    iblk m c 4 t (ix2 k j) = m ((c : Thread nD τ).loc main_arg4) (ix2 k j) := by
  obtain ⟨-, -, -, -, -, -, p2, q2, p3, q3, p4, q4, p5, q5, p6, q6, p7, q7, p8, q8, p9, q9, p10, q10, p11, q11⟩ := idx_facts t
  have e : ((cfg0.win 4).blk t).view.emb (ix2 k j) = ix2 k j := funext fun ax => Fin.ext (by
    match ax with
    | ⟨0, _⟩ => show win0_4.index t (0 : Fin 2) * 1024 + 1 * k.val = k.val; omega
    | ⟨1, _⟩ => show win0_4.index t (1 : Fin 2) * 1024 + 1 * j.val = j.val; omega)
  exact (congrArg (V m c main_v2) e).trans (V_main_v2 m c _)
theorem weight_block5 (c : Dev nD) (t : Fin cfg0.N) (k j : Fin 1024) :
    iblk m c 5 t (ix2 k j) = m ((c : Thread nD τ).loc main_arg8) (ix2 k j) := by
  obtain ⟨-, -, -, -, -, -, p2, q2, p3, q3, p4, q4, p5, q5, p6, q6, p7, q7, p8, q8, p9, q9, p10, q10, p11, q11⟩ := idx_facts t
  have e : ((cfg0.win 5).blk t).view.emb (ix2 k j) = ix2 k j := funext fun ax => Fin.ext (by
    match ax with
    | ⟨0, _⟩ => show win0_5.index t (0 : Fin 2) * 1024 + 1 * k.val = k.val; omega
    | ⟨1, _⟩ => show win0_5.index t (1 : Fin 2) * 1024 + 1 * j.val = j.val; omega)
  exact (congrArg (V m c main_v3) e).trans (V_main_v3 m c _)
theorem weight_block6 (c : Dev nD) (t : Fin cfg0.N) (k j : Fin 1024) :
    iblk m c 6 t (ix2 k j) = m ((c : Thread nD τ).loc main_arg9) (ix2 k j) := by
  obtain ⟨-, -, -, -, -, -, p2, q2, p3, q3, p4, q4, p5, q5, p6, q6, p7, q7, p8, q8, p9, q9, p10, q10, p11, q11⟩ := idx_facts t
  have e : ((cfg0.win 6).blk t).view.emb (ix2 k j) = ix2 k j := funext fun ax => Fin.ext (by
    match ax with
    | ⟨0, _⟩ => show win0_6.index t (0 : Fin 2) * 1024 + 1 * k.val = k.val; omega
    | ⟨1, _⟩ => show win0_6.index t (1 : Fin 2) * 1024 + 1 * j.val = j.val; omega)
  exact (congrArg (V m c main_v4) e).trans (V_main_v4 m c _)
theorem weight_block7 (c : Dev nD) (t : Fin cfg0.N) (k j : Fin 1024) :
    iblk m c 7 t (ix2 k j) = m ((c : Thread nD τ).loc main_arg10) (ix2 k j) := by
  obtain ⟨-, -, -, -, -, -, p2, q2, p3, q3, p4, q4, p5, q5, p6, q6, p7, q7, p8, q8, p9, q9, p10, q10, p11, q11⟩ := idx_facts t
  have e : ((cfg0.win 7).blk t).view.emb (ix2 k j) = ix2 k j := funext fun ax => Fin.ext (by
    match ax with
    | ⟨0, _⟩ => show win0_7.index t (0 : Fin 2) * 1024 + 1 * k.val = k.val; omega
    | ⟨1, _⟩ => show win0_7.index t (1 : Fin 2) * 1024 + 1 * j.val = j.val; omega)
  exact (congrArg (V m c main_v5) e).trans (V_main_v5 m c _)

/-- A bias's block is its one row, wherever the point. -/
theorem bias_block8 (c : Dev nD) (t : Fin cfg0.N) (j : Fin 1024) :
    iblk m c 8 t (ix2 (0 : Fin 1) j) = m ((c : Thread nD τ).loc main_arg5) (ix1 j) := by
  obtain ⟨-, -, -, -, -, -, p2, q2, p3, q3, p4, q4, p5, q5, p6, q6, p7, q7, p8, q8, p9, q9, p10, q10, p11, q11⟩ := idx_facts t
  have e : ((cfg0.win 8).blk t).view.emb (ix2 (0 : Fin 1) j) = ix2 (0 : Fin 1) j := funext fun ax => Fin.ext (by
    match ax with
    | ⟨0, _⟩ => show win0_8.index t (0 : Fin 2) * 1 + 1 * 0 = 0; omega
    | ⟨1, _⟩ => show win0_8.index t (1 : Fin 2) * 1024 + 1 * j.val = j.val; omega)
  exact (congrArg (V m c main_v6) e).trans (V_main_v6 m c j)
theorem bias_block9 (c : Dev nD) (t : Fin cfg0.N) (j : Fin 1024) :
    iblk m c 9 t (ix2 (0 : Fin 1) j) = m ((c : Thread nD τ).loc main_arg6) (ix1 j) := by
  obtain ⟨-, -, -, -, -, -, p2, q2, p3, q3, p4, q4, p5, q5, p6, q6, p7, q7, p8, q8, p9, q9, p10, q10, p11, q11⟩ := idx_facts t
  have e : ((cfg0.win 9).blk t).view.emb (ix2 (0 : Fin 1) j) = ix2 (0 : Fin 1) j := funext fun ax => Fin.ext (by
    match ax with
    | ⟨0, _⟩ => show win0_9.index t (0 : Fin 2) * 1 + 1 * 0 = 0; omega
    | ⟨1, _⟩ => show win0_9.index t (1 : Fin 2) * 1024 + 1 * j.val = j.val; omega)
  exact (congrArg (V m c main_v7) e).trans (V_main_v7 m c j)
theorem bias_block10 (c : Dev nD) (t : Fin cfg0.N) (j : Fin 1024) :
    iblk m c 10 t (ix2 (0 : Fin 1) j) = m ((c : Thread nD τ).loc main_arg7) (ix1 j) := by
  obtain ⟨-, -, -, -, -, -, p2, q2, p3, q3, p4, q4, p5, q5, p6, q6, p7, q7, p8, q8, p9, q9, p10, q10, p11, q11⟩ := idx_facts t
  have e : ((cfg0.win 10).blk t).view.emb (ix2 (0 : Fin 1) j) = ix2 (0 : Fin 1) j := funext fun ax => Fin.ext (by
    match ax with
    | ⟨0, _⟩ => show win0_10.index t (0 : Fin 2) * 1 + 1 * 0 = 0; omega
    | ⟨1, _⟩ => show win0_10.index t (1 : Fin 2) * 1024 + 1 * j.val = j.val; omega)
  exact (congrArg (V m c main_v8) e).trans (V_main_v8 m c j)
theorem bias_block11 (c : Dev nD) (t : Fin cfg0.N) (j : Fin 1024) :
    iblk m c 11 t (ix2 (0 : Fin 1) j) = m ((c : Thread nD τ).loc main_arg11) (ix1 j) := by
  obtain ⟨-, -, -, -, -, -, p2, q2, p3, q3, p4, q4, p5, q5, p6, q6, p7, q7, p8, q8, p9, q9, p10, q10, p11, q11⟩ := idx_facts t
  have e : ((cfg0.win 11).blk t).view.emb (ix2 (0 : Fin 1) j) = ix2 (0 : Fin 1) j := funext fun ax => Fin.ext (by
    match ax with
    | ⟨0, _⟩ => show win0_11.index t (0 : Fin 2) * 1 + 1 * 0 = 0; omega
    | ⟨1, _⟩ => show win0_11.index t (1 : Fin 2) * 1024 + 1 * j.val = j.val; omega)
  exact (congrArg (V m c main_v9) e).trans (V_main_v9 m c j)

/-! ## What a point writes back, the cover, and the array after the run -/

/-- WHAT POINT `t` WRITES BACK is block `t` of the new state of the argument arrays. -/
theorem flushed_eq (c : Dev nD) (t : Fin cfg0.N) :
    (dats m 0 c).flushed 12 t = ((cfg0.win 12).blk t).view.read (Elt Ideal)
      (newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))) := by
  rw [Value.flushed12]
  unfold out0_12
  rw [View.canon_unit_zero hz]
  simp only [View.ld_unit_zero (S := S512x1024) hz, View.ld_unit_zero (S := S1024x1024) hz, View.ld_unit_zero (S := S1x1024) hz]
  refine funext fun (y : S512x1024.Idx) => ?_
  refine (stored_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) y).trans ?_
  show cell _ _ _ _ _ _ _ _ _ _ _ _ _ = newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (((cfg0.win 12).blk t).view.emb y)
  unfold newState
  obtain ⟨f0, f1, -⟩ := idx_facts t
  exact cell_congr
    (funext fun k => input_block m c t (y 0) k (((cfg0.win 12).blk t).view.emb y 0) rfl)
    (funext fun k => state_block m c t (y 0) k (((cfg0.win 12).blk t).view.emb y 0) rfl)
    (funext fun k => funext fun j => weight_block2 m c t k j)
    (funext fun k => funext fun j => weight_block3 m c t k j)
    (funext fun k => funext fun j => weight_block4 m c t k j)
    (funext fun k => funext fun j => weight_block5 m c t k j)
    (funext fun k => funext fun j => weight_block6 m c t k j)
    (funext fun k => funext fun j => weight_block7 m c t k j)
    (funext fun j => bias_block8 m c t j)
    (funext fun j => bias_block9 m c t j)
    (funext fun j => bias_block10 m c t j)
    (funext fun j => bias_block11 m c t j)
    (Fin.ext (show (y 1).val = win0_12.index t (1 : Fin 2) * 1024 + 1 * (y 1).val by omega))

/-- An index of the result lies in point `t`'s block iff each coordinate is in the block's range on its axis. -/
theorem mem_blk (t : Fin cfg0.N) (i : S16384x1024.Idx) :
    i ∈ ((cfg0.win 12).blk t).view.set ↔ ∀ a : Fin 2, win0_12.index t a * S512x1024.size a ≤ (i a).val ∧ (i a).val < win0_12.index t a * S512x1024.size a + S512x1024.size a := by
  show i ∈ ((View.whole main_v10).slice (win0_12.rect t)).set ↔ _
  rw [View.set_slice_whole, Rect.mem_set_unit]
  exact Iff.rfl

/-- Every index of the result is in some point's block: row `r` in block `r / 512`. -/
theorem cover (i : S16384x1024.Idx) : ∃ t : Fin cfg0.N, (cfg0.win 12).flush t = true ∧ i ∈ ((cfg0.win 12).blk t).view.set := by
  have hi0 : (i 0).val < 16384 := (i 0).isLt
  have hi1 : (i 1).val < 1024 := (i 1).isLt
  obtain ⟨t, ht⟩ := idx_onto ⟨(i 0).val / 512, by omega⟩
  have q0 : win0_12.index t (0 : Fin 2) = (i 0).val / 512 := congrFun ht 0
  have q1 : win0_12.index t (1 : Fin 2) = 0 := congrFun ht 1
  refine ⟨t, flush0_12 t, ?_⟩
  rw [mem_blk]
  intro a
  match a with
  | ⟨0, _⟩ => show win0_12.index t (0 : Fin 2) * 512 ≤ (i 0).val ∧ (i 0).val < win0_12.index t (0 : Fin 2) * 512 + 512; omega
  | ⟨1, _⟩ => show win0_12.index t (1 : Fin 2) * 1024 ≤ (i 1).val ∧ (i 1).val < win0_12.index t (1 : Fin 2) * 1024 + 1024; omega

/-- THE RESULT ARRAY after the run is the new state of the argument arrays. -/
theorem final (c : Dev nD) : (dats m 0 c).arrAt 12 cfg0.N = newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (dats m 0 c).arrAt_eq_of_cover 12 _ (fun t _ => flushed_eq m c t) cover

/-- The kernel's run: it ends, with the result at the new state of the arguments and the arguments unchanged. -/
theorem run : θ_run defs (onTc (τ := τ) (main (F := Ideal))) ⟨m, fun _ => 0, ρ⟩ fun r => ∀ c : Dev nD,
      r.2.mem ((c : Thread nD τ).loc main_v10) = newState (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Cert.KernelIdeal.Value.run_blocks m ρ)

end Cert.KernelIdeal.KerValue

end
-- ==== Proof.LibConcat3.lean ====
/-
  Three arrays of ONE shape laid side by side, read at an index.

  Joining `x0`, `x1`, `x2` of shape `[R, C]` along the column axis gives an array of shape `[R, T]` (with
  `T = 3 · C`) whose entry at row `k` and column `n · C + j` (`n` = 0, 1, 2 and `j < C`) is entry `(k, j)` of piece
  `n`; likewise three vectors of length `C` joined end to end. The index read is any index whose coordinates
  have those values, so the lemmas apply to an index however it was composed. Each is the general
  reading of a concatenation at the piece whose span holds the joined coordinate, with the extents before
  that piece summed: `0`, `C`, `C + C`.
-/
import Idealize.ShloMosaic.Lib.Pipeline.Value
import Idealize.ShloMosaic.Lib.ValueIdx

namespace Cert.Lib.Concat3

open Idealize.ShloMosaic Idealize.ShloMosaic.ValueIdx

variable {α : Type}

/-! ## Three `[R, C]` arrays joined along the columns -/

/-- A column in the FIRST piece's span: entry `(k, j)` of `x0`. -/
theorem cols_first {R C T : Nat} (x0 x1 x2 : (⟨2, ![R, C]⟩ : Shape).Idx → α)
    (h : Shape.Concatenates (([⟨⟨2, ![R, C]⟩, x0⟩, ⟨⟨2, ![R, C]⟩, x1⟩, ⟨⟨2, ![R, C]⟩, x2⟩] : List ((s : Shape) × (s.Idx → α))).map (·.1)) ⟨2, ![R, T]⟩ 1)
    (J : (⟨2, ![R, T]⟩ : Shape).Idx) (k : Fin R) (j : Fin C) (h0 : (J 0).val = k.val) (h1 : (J 1).val = j.val) :
    concatenate ⟨2, ![R, T]⟩ 1 [⟨⟨2, ![R, C]⟩, x0⟩, ⟨⟨2, ![R, C]⟩, x1⟩, ⟨⟨2, ![R, C]⟩, x2⟩] h J = x0 (ix2 k j) :=
  concatenate_apply_piece 1 _ h J 0 (Nat.succ_le_succ (Nat.zero_le 2)) ⟨2, ![R, C]⟩ x0 rfl rfl 0 rfl (ix2 k j)
    (fun b hb => by
      match b with
      | ⟨0, _⟩ => exact h0.symm
      | ⟨1, _⟩ => exact absurd (Fin.ext rfl) hb)
    (by show 0 + j.val = (J 1).val; omega)

/-- A column in the SECOND piece's span: entry `(k, j)` of `x1`. -/
theorem cols_second {R C T : Nat} (x0 x1 x2 : (⟨2, ![R, C]⟩ : Shape).Idx → α)
    (h : Shape.Concatenates (([⟨⟨2, ![R, C]⟩, x0⟩, ⟨⟨2, ![R, C]⟩, x1⟩, ⟨⟨2, ![R, C]⟩, x2⟩] : List ((s : Shape) × (s.Idx → α))).map (·.1)) ⟨2, ![R, T]⟩ 1)
    (J : (⟨2, ![R, T]⟩ : Shape).Idx) (k : Fin R) (j : Fin C) (h0 : (J 0).val = k.val) (h1 : (J 1).val = C + j.val) :
    concatenate ⟨2, ![R, T]⟩ 1 [⟨⟨2, ![R, C]⟩, x0⟩, ⟨⟨2, ![R, C]⟩, x1⟩, ⟨⟨2, ![R, C]⟩, x2⟩] h J = x1 (ix2 k j) :=
  concatenate_apply_piece 1 _ h J 1 (Nat.succ_le_succ (Nat.succ_le_succ (Nat.zero_le 1))) ⟨2, ![R, C]⟩ x1 rfl rfl C (by show C + 0 = C; omega) (ix2 k j)
    (fun b hb => by
      match b with
      | ⟨0, _⟩ => exact h0.symm
      | ⟨1, _⟩ => exact absurd (Fin.ext rfl) hb)
    (by show C + j.val = (J 1).val; omega)

/-- A column in the THIRD piece's span: entry `(k, j)` of `x2`. -/
theorem cols_third {R C T : Nat} (x0 x1 x2 : (⟨2, ![R, C]⟩ : Shape).Idx → α)
    (h : Shape.Concatenates (([⟨⟨2, ![R, C]⟩, x0⟩, ⟨⟨2, ![R, C]⟩, x1⟩, ⟨⟨2, ![R, C]⟩, x2⟩] : List ((s : Shape) × (s.Idx → α))).map (·.1)) ⟨2, ![R, T]⟩ 1)
    (J : (⟨2, ![R, T]⟩ : Shape).Idx) (k : Fin R) (j : Fin C) (h0 : (J 0).val = k.val) (h1 : (J 1).val = C + C + j.val) :
    concatenate ⟨2, ![R, T]⟩ 1 [⟨⟨2, ![R, C]⟩, x0⟩, ⟨⟨2, ![R, C]⟩, x1⟩, ⟨⟨2, ![R, C]⟩, x2⟩] h J = x2 (ix2 k j) :=
  concatenate_apply_piece 1 _ h J 2 (Nat.succ_le_succ (Nat.succ_le_succ (Nat.succ_le_succ (Nat.zero_le 0)))) ⟨2, ![R, C]⟩ x2 rfl rfl (C + C) (by show C + (C + 0) = C + C; omega) (ix2 k j)
    (fun b hb => by
      match b with
      | ⟨0, _⟩ => exact h0.symm
      | ⟨1, _⟩ => exact absurd (Fin.ext rfl) hb)
    (by show C + C + j.val = (J 1).val; omega)

/-! ## Three vectors of length `C` joined end to end -/

/-- A position in the FIRST vector's span. -/
theorem vec_first {C T : Nat} (x0 x1 x2 : (⟨1, ![C]⟩ : Shape).Idx → α)
    (h : Shape.Concatenates (([⟨⟨1, ![C]⟩, x0⟩, ⟨⟨1, ![C]⟩, x1⟩, ⟨⟨1, ![C]⟩, x2⟩] : List ((s : Shape) × (s.Idx → α))).map (·.1)) ⟨1, ![T]⟩ 0)
    (J : (⟨1, ![T]⟩ : Shape).Idx) (j : Fin C) (h0 : (J 0).val = j.val) :
    concatenate ⟨1, ![T]⟩ 0 [⟨⟨1, ![C]⟩, x0⟩, ⟨⟨1, ![C]⟩, x1⟩, ⟨⟨1, ![C]⟩, x2⟩] h J = x0 (ix1 j) :=
  concatenate_apply_piece 0 _ h J 0 (Nat.succ_le_succ (Nat.zero_le 2)) ⟨1, ![C]⟩ x0 rfl rfl 0 rfl (ix1 j)
    (fun b hb => by
      match b with
      | ⟨0, _⟩ => exact absurd (Fin.ext rfl) hb)
    (by show 0 + j.val = (J 0).val; omega)

/-- A position in the SECOND vector's span. -/
theorem vec_second {C T : Nat} (x0 x1 x2 : (⟨1, ![C]⟩ : Shape).Idx → α)
    (h : Shape.Concatenates (([⟨⟨1, ![C]⟩, x0⟩, ⟨⟨1, ![C]⟩, x1⟩, ⟨⟨1, ![C]⟩, x2⟩] : List ((s : Shape) × (s.Idx → α))).map (·.1)) ⟨1, ![T]⟩ 0)
    (J : (⟨1, ![T]⟩ : Shape).Idx) (j : Fin C) (h0 : (J 0).val = C + j.val) :
    concatenate ⟨1, ![T]⟩ 0 [⟨⟨1, ![C]⟩, x0⟩, ⟨⟨1, ![C]⟩, x1⟩, ⟨⟨1, ![C]⟩, x2⟩] h J = x1 (ix1 j) :=
  concatenate_apply_piece 0 _ h J 1 (Nat.succ_le_succ (Nat.succ_le_succ (Nat.zero_le 1))) ⟨1, ![C]⟩ x1 rfl rfl C (by show C + 0 = C; omega) (ix1 j)
    (fun b hb => by
      match b with
      | ⟨0, _⟩ => exact absurd (Fin.ext rfl) hb)
    (by show C + j.val = (J 0).val; omega)

/-- A position in the THIRD vector's span. -/
theorem vec_third {C T : Nat} (x0 x1 x2 : (⟨1, ![C]⟩ : Shape).Idx → α)
    (h : Shape.Concatenates (([⟨⟨1, ![C]⟩, x0⟩, ⟨⟨1, ![C]⟩, x1⟩, ⟨⟨1, ![C]⟩, x2⟩] : List ((s : Shape) × (s.Idx → α))).map (·.1)) ⟨1, ![T]⟩ 0)
    (J : (⟨1, ![T]⟩ : Shape).Idx) (j : Fin C) (h0 : (J 0).val = C + C + j.val) :
    concatenate ⟨1, ![T]⟩ 0 [⟨⟨1, ![C]⟩, x0⟩, ⟨⟨1, ![C]⟩, x1⟩, ⟨⟨1, ![C]⟩, x2⟩] h J = x2 (ix1 j) :=
  concatenate_apply_piece 0 _ h J 2 (Nat.succ_le_succ (Nat.succ_le_succ (Nat.succ_le_succ (Nat.zero_le 0)))) ⟨1, ![C]⟩ x2 rfl rfl (C + C) (by show C + (C + 0) = C + C; omega) (ix1 j)
    (fun b hb => by
      match b with
      | ⟨0, _⟩ => exact absurd (Fin.ext rfl) hb)
    (by show C + C + j.val = (J 0).val; omega)

end Cert.Lib.Concat3
-- ==== Proof.RefCell.lean ====
/-
  The reference computes the cell, entry by entry.

  Its two fused products are taken against the three input matrices laid side by side (and the three state
  matrices likewise), the three input biases laid end to end are added, and the result is cut back into three
  column bands of width 1024. Read at row `p`, column `n · 1024 + q`, a fused product is the sum over `k` of
  row `p` times column `q` of matrix `n`, and the bias added there is entry `q` of bias `n`: the bands are the
  three separate projections. The gates are the logistic function written as `1 / (1 + e^(-z))`, the candidate
  is `tanh`, and the new state is `(1 − z) · n + z · h` — the cell of `GruCell`, in the same grouping.
-/
import proofs.«111612_j47124381172356_1_alg».proof.Proof.Gen.ReferenceIdeal.Read
import proofs.«111612_j47124381172356_1_alg».proof.Proof.GruCell
import proofs.«111612_j47124381172356_1_alg».proof.Proof.LibConcat3
import Idealize.ShloMosaic.Lib.ValueIdx
import Idealize.ShloMosaic.PureOps.Ideal.Laws

noncomputable section

namespace Cert.ReferenceIdeal.RefValue

open Cert.ReferenceIdeal Cert.ReferenceIdeal.Read Idealize.ShloMosaic Idealize.ShloMosaic.ValueIdx Cert.Gru Cert.Lib

variable (x0 x1 : (⟨S16384x1024, .f32⟩ : BufTy).Contents (Elt Ideal))
  (x2 x3 x4 : (⟨S1024x1024, .f32⟩ : BufTy).Contents (Elt Ideal))
  (x5 x6 x7 : (⟨S1024, .f32⟩ : BufTy).Contents (Elt Ideal))
  (x8 x9 x10 : (⟨S1024x1024, .f32⟩ : BufTy).Contents (Elt Ideal))
  (x11 : (⟨S1024, .f32⟩ : BufTy).Contents (Elt Ideal))

/-! ## The fused input projection, band by band -/

/-- In the first band (columns `q`): row `p` of the input against column `q` of the first matrix, plus the first bias at `q`. -/
theorem input_band0 (J : S16384x3072.Idx) (p : Fin 16384) (q : Fin 1024) (h0 : (J 0).val = p.val) (h1 : (J 1).val = q.val) :
    val_main_v5 (F := Ideal) x1 x2 x3 x4 x5 x6 x7 J
      = dot (fun k => x1 (ix2 p k)) (fun k j => x2 (ix2 k j)) q + x5 (ix1 q) := by
  rw [val_main_v5_apply, val_main_v1_apply, val_main_v4_apply, val_main_v3_apply]
  show (∑ k : Fin 1024, _) + _ = _
  unfold dot
  congr 1
  · refine Finset.sum_congr rfl fun k _ => ?_
    have e1 : lidx_main_v1 J k = ix2 p k := funext fun a => Fin.ext (by
      match a with
      | ⟨0, _⟩ => exact h0
      | ⟨1, _⟩ => rfl)
    rw [e1]
    exact congrArg (x1 (ix2 p k) * ·) (Concat3.cols_first x2 x3 x4 _ _ k q rfl h1)
  · exact Concat3.vec_first x5 x6 x7 _ _ q h1

/-- In the second band (columns `1024 + q`): the second matrix and the second bias. -/
theorem input_band1 (J : S16384x3072.Idx) (p : Fin 16384) (q : Fin 1024) (h0 : (J 0).val = p.val) (h1 : (J 1).val = 1024 + q.val) :
    val_main_v5 (F := Ideal) x1 x2 x3 x4 x5 x6 x7 J
      = dot (fun k => x1 (ix2 p k)) (fun k j => x3 (ix2 k j)) q + x6 (ix1 q) := by
  rw [val_main_v5_apply, val_main_v1_apply, val_main_v4_apply, val_main_v3_apply]
  show (∑ k : Fin 1024, _) + _ = _
  unfold dot
  congr 1
  · refine Finset.sum_congr rfl fun k _ => ?_
    have e1 : lidx_main_v1 J k = ix2 p k := funext fun a => Fin.ext (by
      match a with
      | ⟨0, _⟩ => exact h0
      | ⟨1, _⟩ => rfl)
    rw [e1]
    exact congrArg (x1 (ix2 p k) * ·) (Concat3.cols_second x2 x3 x4 _ _ k q rfl h1)
  · exact Concat3.vec_second x5 x6 x7 _ _ q h1

/-- In the third band (columns `2048 + q`): the third matrix and the third bias. -/
theorem input_band2 (J : S16384x3072.Idx) (p : Fin 16384) (q : Fin 1024) (h0 : (J 0).val = p.val) (h1 : (J 1).val = 1024 + 1024 + q.val) :
    val_main_v5 (F := Ideal) x1 x2 x3 x4 x5 x6 x7 J
      = dot (fun k => x1 (ix2 p k)) (fun k j => x4 (ix2 k j)) q + x7 (ix1 q) := by
  rw [val_main_v5_apply, val_main_v1_apply, val_main_v4_apply, val_main_v3_apply]
  show (∑ k : Fin 1024, _) + _ = _
  unfold dot
  congr 1
  · refine Finset.sum_congr rfl fun k _ => ?_
    have e1 : lidx_main_v1 J k = ix2 p k := funext fun a => Fin.ext (by
      match a with
      | ⟨0, _⟩ => exact h0
      | ⟨1, _⟩ => rfl)
    rw [e1]
    exact congrArg (x1 (ix2 p k) * ·) (Concat3.cols_third x2 x3 x4 _ _ k q rfl h1)
  · exact Concat3.vec_third x5 x6 x7 _ _ q h1

/-! ## The fused state projection, band by band -/

theorem state_band0 (J : S16384x3072.Idx) (p : Fin 16384) (q : Fin 1024) (h0 : (J 0).val = p.val) (h1 : (J 1).val = q.val) :
    val_main_v7 (F := Ideal) x0 x8 x9 x10 J = dot (fun k => x0 (ix2 p k)) (fun k j => x8 (ix2 k j)) q := by
  rw [val_main_v7_apply]
  unfold dot
  refine Finset.sum_congr rfl fun k _ => ?_
  have e1 : lidx_main_v7 J k = ix2 p k := funext fun a => Fin.ext (by
    match a with
    | ⟨0, _⟩ => exact h0
    | ⟨1, _⟩ => rfl)
  rw [e1]
  exact congrArg (x0 (ix2 p k) * ·) (Concat3.cols_first x8 x9 x10 _ _ k q rfl h1)

theorem state_band1 (J : S16384x3072.Idx) (p : Fin 16384) (q : Fin 1024) (h0 : (J 0).val = p.val) (h1 : (J 1).val = 1024 + q.val) :
    val_main_v7 (F := Ideal) x0 x8 x9 x10 J = dot (fun k => x0 (ix2 p k)) (fun k j => x9 (ix2 k j)) q := by
  rw [val_main_v7_apply]
  unfold dot
  refine Finset.sum_congr rfl fun k _ => ?_
  have e1 : lidx_main_v7 J k = ix2 p k := funext fun a => Fin.ext (by
    match a with
    | ⟨0, _⟩ => exact h0
    | ⟨1, _⟩ => rfl)
  rw [e1]
  exact congrArg (x0 (ix2 p k) * ·) (Concat3.cols_second x8 x9 x10 _ _ k q rfl h1)

theorem state_band2 (J : S16384x3072.Idx) (p : Fin 16384) (q : Fin 1024) (h0 : (J 0).val = p.val) (h1 : (J 1).val = 1024 + 1024 + q.val) :
    val_main_v7 (F := Ideal) x0 x8 x9 x10 J = dot (fun k => x0 (ix2 p k)) (fun k j => x10 (ix2 k j)) q := by
  rw [val_main_v7_apply]
  unfold dot
  refine Finset.sum_congr rfl fun k _ => ?_
  have e1 : lidx_main_v7 J k = ix2 p k := funext fun a => Fin.ext (by
    match a with
    | ⟨0, _⟩ => exact h0
    | ⟨1, _⟩ => rfl)
  rw [e1]
  exact congrArg (x0 (ix2 p k) * ·) (Concat3.cols_third x8 x9 x10 _ _ k q rfl h1)

/-! ## The gates -/

/-- The reset gate at `(p, q)`: the logistic function of the first bands' sum. -/
theorem reset_gate (p : Fin 16384) (q : Fin 1024) :
    val_main_v20 (F := Ideal) x0 x1 x2 x3 x4 x5 x6 x7 x8 x9 x10 (ix2 p q)
      = Ideal.logistic ((dot (fun k => x1 (ix2 p k)) (fun k j => x2 (ix2 k j)) q + x5 (ix1 q))
          + dot (fun k => x0 (ix2 p k)) (fun k j => x8 (ix2 k j)) q) := by
  rw [val_main_v20_apply, val_main_v19_apply, val_main_cst_0_apply, val_main_v18_apply, val_main_v17_apply,
    val_main_cst_apply, val_main_v16_apply, val_main_v15_apply, val_main_v14_apply, val_main_v8_apply, val_main_v11_apply,
    input_band0 x1 x2 x3 x4 x5 x6 x7 _ p q rfl rfl, state_band0 x0 x8 x9 x10 _ p q rfl rfl]
  exact logistic_quotient _

/-- The update gate at `(p, q)`: the logistic function of the second bands' sum. -/
theorem update_gate (p : Fin 16384) (q : Fin 1024) :
    val_main_v27 (F := Ideal) x0 x1 x2 x3 x4 x5 x6 x7 x8 x9 x10 (ix2 p q)
      = Ideal.logistic ((dot (fun k => x1 (ix2 p k)) (fun k j => x3 (ix2 k j)) q + x6 (ix1 q))
          + dot (fun k => x0 (ix2 p k)) (fun k j => x9 (ix2 k j)) q) := by
  rw [val_main_v27_apply, val_main_v26_apply, val_main_cst_2_apply, val_main_v25_apply, val_main_v24_apply,
    val_main_cst_1_apply, val_main_v23_apply, val_main_v22_apply, val_main_v21_apply, val_main_v9_apply, val_main_v12_apply,
    input_band1 x1 x2 x3 x4 x5 x6 x7 _ p q rfl rfl, state_band1 x0 x8 x9 x10 _ p q rfl rfl]
  exact logistic_quotient _

/-! ## The new state -/

/-- The last bias, broadcast over the rows, read at `(p, q)` is its entry `q`. -/
theorem last_bias (p : Fin 16384) (q : Fin 1024) : val_main_v29 (F := Ideal) x11 (ix2 p q) = x11 (ix1 q) := by
  rw [val_main_v29_apply, val_main_v28_apply]
  exact congrArg x11 (funext fun a => Fin.ext (by
    match a with
    | ⟨0, _⟩ => rfl))

/-- THE REFERENCE'S RESULT at row `p`, column `q` is the cell's entry `q` of row `p` of the input and of the state. -/
theorem result_apply (p : Fin 16384) (q : Fin 1024) :
    val_main_v38 (F := Ideal) x0 x1 x2 x3 x4 x5 x6 x7 x8 x9 x10 x11 (ix2 p q)
      = cell (fun k => x1 (ix2 p k)) (fun k => x0 (ix2 p k))
          (fun k j => x2 (ix2 k j)) (fun k j => x3 (ix2 k j)) (fun k j => x4 (ix2 k j))
          (fun k j => x8 (ix2 k j)) (fun k j => x9 (ix2 k j)) (fun k j => x10 (ix2 k j))
          (fun j => x5 (ix1 j)) (fun j => x6 (ix1 j)) (fun j => x7 (ix1 j)) (fun j => x11 (ix1 j)) q := by
  rw [val_main_v38_apply, val_main_v36_apply, val_main_v37_apply, val_main_v35_apply, val_main_v34_apply,
    val_main_cst_3_apply, val_main_v33_apply, val_main_v32_apply, val_main_v31_apply, val_main_v30_apply,
    val_main_v13_apply, val_main_v10_apply, last_bias, update_gate, reset_gate,
    input_band2 x1 x2 x3 x4 x5 x6 x7 _ p q rfl rfl, state_band2 x0 x8 x9 x10 _ p q rfl rfl]
  rfl

end Cert.ReferenceIdeal.RefValue

end
-- ==== Proof.RefState.lean ====
/-
  The reference's result array is the new state of its arguments.

  `RefCell` reads the reference's last operation at row `p`, column `q` as the cell's entry; an index of a
  16384 × 1024 array IS a pair `(p, q)`, so the two arrays agree everywhere.
-/
import proofs.«111612_j47124381172356_1_alg».proof.Proof.RefCell
import proofs.«111612_j47124381172356_1_alg».proof.Proof.GruState

noncomputable section

namespace Cert.ReferenceIdeal.RefValue

open Cert.ReferenceIdeal Cert.ReferenceIdeal.Read Idealize.ShloMosaic Idealize.ShloMosaic.ValueIdx Cert.Gru

/-- The reference's last stage, as one array, is the new state of the twelve arguments. -/
theorem result_eq (x0 x1 : (⟨S16384x1024, .f32⟩ : BufTy).Contents (Elt Ideal))
    (x2 x3 x4 : (⟨S1024x1024, .f32⟩ : BufTy).Contents (Elt Ideal))
    (x5 x6 x7 : (⟨S1024, .f32⟩ : BufTy).Contents (Elt Ideal))
    (x8 x9 x10 : (⟨S1024x1024, .f32⟩ : BufTy).Contents (Elt Ideal))
    (x11 : (⟨S1024, .f32⟩ : BufTy).Contents (Elt Ideal)) :
    val_main_v38 (F := Ideal) x0 x1 x2 x3 x4 x5 x6 x7 x8 x9 x10 x11
      = newState x0 x1 x2 x3 x4 x5 x6 x7 x8 x9 x10 x11 := by
  funext i
  obtain ⟨p, q, rfl⟩ : ∃ (p : Fin 16384) (q : Fin 1024), i = ix2 p q := ⟨i 0, i 1, eq_ix2 i⟩
  exact result_apply x0 x1 x2 x3 x4 x5 x6 x7 x8 x9 x10 x11 p q

end Cert.ReferenceIdeal.RefValue

end
-- ==== Proof.lean ====
/-
  A gated recurrent unit's cell, as a tiled kernel and as a fused reference, computes one function on the
  extended reals.

  The kernel walks the 16384 rows of the batch in 32 blocks of 512; for each block it forms six products with the
  weight matrices (three of the input's rows, three of the state's), adds the biases, applies the logistic function
  to two sums (the reset gate `r` and the update gate `z`), `tanh` to a third (the candidate `n`, whose state
  projection is scaled by `r`), and stores `(1 − z) · n + z · h`. The reference lays the three input matrices side
  by side, multiplies once, adds the three biases laid end to end, cuts the product back into its three bands,
  does the same for the state, spells the logistic function as `1 / (1 + e^(-s))`, and combines in the same way.

  At exact arithmetic the two agree entry by entry with no regrouping: a band of a product against matrices laid
  side by side IS the product against the one matrix of that band; the spelled-out quotient IS the logistic
  function; a change of float format is the identity. So both result arrays are `Cert.Gru.newState` of the
  arguments (`KernelArray.run` for the kernel, the generated run with `RefState.result_eq` for the reference), and
  neither side uses that the inputs are finite. The three programs' runs leave their arguments unchanged (the
  generated frames; the reference's is its generated run with the results dropped), and the idealized kernel is the
  kernel's own text read at exact arithmetic: no operation was rewritten, so there is nothing to preserve.
-/
import proofs.«111612_j47124381172356_1_alg».proof.Defs
import proofs.«111612_j47124381172356_1_alg».proof.Proof.Gen.Kernel
import proofs.«111612_j47124381172356_1_alg».proof.Proof.Gen.Kernel.Skeleton
import proofs.«111612_j47124381172356_1_alg».proof.Proof.Gen.Kernel.Launch
import proofs.«111612_j47124381172356_1_alg».proof.Proof.Gen.Kernel.Points
import proofs.«111612_j47124381172356_1_alg».proof.Proof.Gen.Kernel.Frame
import proofs.«111612_j47124381172356_1_alg».proof.Proof.Gen.KernelIdeal
import proofs.«111612_j47124381172356_1_alg».proof.Proof.Gen.KernelIdeal.Skeleton
import proofs.«111612_j47124381172356_1_alg».proof.Proof.Gen.KernelIdeal.Launch
import proofs.«111612_j47124381172356_1_alg».proof.Proof.Gen.KernelIdeal.Points
import proofs.«111612_j47124381172356_1_alg».proof.Proof.Gen.KernelIdeal.Frame
import proofs.«111612_j47124381172356_1_alg».proof.Proof.Gen.ReferenceIdeal
import proofs.«111612_j47124381172356_1_alg».proof.Proof.Gen.Pre_finite_inputs
import proofs.«111612_j47124381172356_1_alg».proof.Proof.Gen.KernelIdeal.Value
import proofs.«111612_j47124381172356_1_alg».proof.Proof.Gen.ReferenceIdeal.Run
import proofs.«111612_j47124381172356_1_alg».proof.Proof.Gen.ReferenceIdeal.Read
import proofs.«111612_j47124381172356_1_alg».proof.Proof.KernelArray
import proofs.«111612_j47124381172356_1_alg».proof.Proof.RefState
import Idealize.ShloMosaic.Adequacy
import Idealize.ShloMosaic.Init

noncomputable section

namespace Cert.Proof

open Idealize.ShloMosaic Idealize.ShloMosaic.TcCoe Idealize.SL.Sem Cert.Gru

/-- The kernel as printed runs and leaves its arguments as they were. -/
theorem frame_kernel [Cert.Kernel.Facts] [Cert.Pre_finite_inputs.Facts] : Cert.frame_Kernel :=
  fun m ρ _ => Cert.Kernel.Gen.frame m ρ

/-- So does the kernel read at exact arithmetic. -/
theorem frame_kernelIdeal [Cert.KernelIdeal.Facts] [Cert.Pre_finite_inputs.Facts] : Cert.frame_KernelIdeal :=
  fun m ρ _ => Cert.KernelIdeal.Gen.frame m ρ

/-- And the reference: its run with the two results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2)
    (Cert.ReferenceIdeal.Value.run (F := Ideal) m ρ)

/-- From memories that agree on the twelve arguments, both programs end with both results at the new state of
    the kernel's arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => newState (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => newState (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono (fun r h c => ⟨(h c).1, (h c).1, (h c).2⟩)
      (Cert.KernelIdeal.KerValue.run m ρ)
  · refine (θ_run Cert.ReferenceIdeal.defs _ _).mono (fun r h c => ?_)
      (Cert.ReferenceIdeal.Value.run (F := Ideal) m' ρ')
    have e : Cert.ReferenceIdeal.Value.res_main_v38 m' c = newState (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
      rw [Cert.ReferenceIdeal.Read.val_main_v38_eq, Cert.ReferenceIdeal.RefValue.result_eq,
        (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2]
    exact ⟨(h c).1.trans e, (h c).2.1.trans e, (h c).2.2⟩

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
